-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x199x4096 : Shape := ⟨3, ![64, 199, 4096]⟩
abbrev S64x200x8192 : Shape := ⟨3, ![64, 200, 8192]⟩
abbrev S_ : Shape := ⟨0, ![]⟩

class Facts : Prop where
  bcast_S_S64x199x4096 : S_.BroadcastsInDim S64x199x4096 (![] : Fin 0 → Fin S64x199x4096.rank)
  reducesTo_S64x199x4096_S_d0_1_2 : S64x199x4096.ReducesTo [0, 1, 2] S_
  h_S_ : 0 < S_.numel
  bcast_S_S64x200x8192 : S_.BroadcastsInDim S64x200x8192 (![] : Fin 0 → Fin S64x200x8192.rank)
  reducesTo_S64x200x8192_S_d0_1_2 : S64x200x8192.ReducesTo [0, 1, 2] S_

variable [Facts]

def fn {F : FTy → Type} [FloatOps F] (main_arg0 : FVec F S64x199x4096 .f32) (main_arg1 : FVec F S64x200x8192 .f32) : IVec S_ 1 :=
  let main_v0 : FVec F S64x199x4096 .f32 := Host.absf main_arg0
  let main_cst : FVec F S_ .f32 := constant S_ .f32 0x7F800000#32
  let main_v1 : FVec F S64x199x4096 .f32 := broadcastInDim S64x199x4096 ![] bcast_S_S64x199x4096 main_cst
  let main_v2 : IVec S64x199x4096 1 := cmpf .olt main_v0 main_v1
  let main_c : IVec S_ 1 := constantI S_ 1 1#1
  let main_v3 : IVec S_ 1 := (fun x v => Host.reduce IntOp.andi x v reducesTo_S64x199x4096_S_d0_1_2 h_S_) main_v2 main_c
  let main_v4 : FVec F S64x200x8192 .f32 := Host.absf main_arg1
  let main_cst_0 : FVec F S_ .f32 := constant S_ .f32 0x7F800000#32
  let main_v5 : FVec F S64x200x8192 .f32 := broadcastInDim S64x200x8192 ![] bcast_S_S64x200x8192 main_cst_0
  let main_v6 : IVec S64x200x8192 1 := cmpf .olt main_v4 main_v5
  let main_c_1 : IVec S_ 1 := constantI S_ 1 1#1
  let main_v7 : IVec S_ 1 := (fun x v => Host.reduce IntOp.andi x v reducesTo_S64x200x8192_S_d0_1_2 h_S_) main_v6 main_c_1
  let main_v8 : IVec S_ 1 := andi main_v3 main_v7
  main_v8
-- ==== Kernel.lean ====
abbrev S64x199x4096 : Shape := ⟨3, ![64, 199, 4096]⟩
abbrev S64x200x8192 : Shape := ⟨3, ![64, 200, 8192]⟩
abbrev S2x8x128 : Shape := ⟨3, ![2, 8, 128]⟩
abbrev S2x199x4096 : Shape := ⟨3, ![2, 199, 4096]⟩
abbrev S2x200x8192 : Shape := ⟨3, ![2, 200, 8192]⟩
abbrev S1x8x128 : Shape := ⟨3, ![1, 8, 128]⟩
abbrev S1x1 : Shape := ⟨2, ![1, 1]⟩
abbrev S2x199x8192 : Shape := ⟨3, ![2, 199, 8192]⟩
abbrev S1x2x199x4096 : Shape := ⟨4, ![1, 2, 199, 4096]⟩
abbrev S1 : Shape := ⟨1, ![1]⟩
abbrev S1x1x1x1 : Shape := ⟨4, ![1, 1, 1, 1]⟩
abbrev S2x1x1 : Shape := ⟨3, ![2, 1, 1]⟩
abbrev S2 : Shape := ⟨1, ![2]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S64x199x4096, .f32⟩
  | .hbm, ⟨1, _⟩ => ⟨S64x200x8192, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2x199x4096, .f32⟩
  | .local _ .vmem, ⟨1, _⟩ => ⟨S2x199x4096, .f32⟩
  | .local _ .vmem, ⟨2, _⟩ => ⟨S2x200x8192, .f32⟩
  | .local _ .vmem, ⟨3, _⟩ => ⟨S2x200x8192, .f32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S64x199x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_13 : BitVec 32 := 0#32
  let v31 : BitVec 1 := Scalar.cmpi .ne v30 c0_i32_13
  v31

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x199x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x200x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x199x4096_S2x199x4096_0_0_0 : ∀ a, (![0, 0, 0] : Fin 3 → Nat) a + S2x199x4096.size a ≤ S2x199x4096.size a
  h_S2x199x4096 : 0 < S2x199x4096.numel
  inb_S2x200x8192_S2x200x8192_0_0_0 : ∀ a, (![0, 0, 0] : Fin 3 → Nat) a + S2x200x8192.size a ≤ S2x200x8192.size a
  h_S2x200x8192 : 0 < S2x200x8192.numel
  slices_S2x200x8192_o0_1_0_S2x199x8192 : S2x200x8192.Slices ![0, 1, 0] S2x199x8192
  slices_S2x199x8192_o0_0_0_S2x199x4096 : S2x199x8192.Slices ![0, 0, 0] S2x199x4096
  slices_S2x199x8192_o0_0_4096_S2x199x4096 : S2x199x8192.Slices ![0, 0, 4096] S2x199x4096
  shapeCasts_S2x199x4096_S1x2x199x4096 : S2x199x4096.ShapeCasts S1x2x199x4096
  reduces_S1x2x199x4096_S1 : S1x2x199x4096.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x199x4096.size a ≤ S64x199x4096.size a
  hwx0_0 : ∀ i : grid0.Coords, EltTy.bits .f32 = 32 ∨ (Rect.block (s := S64x199x4096) S2x199x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x200x8192.size a ≤ S64x200x8192.size a
  hwx0_1 : ∀ i : grid0.Coords, EltTy.bits .f32 = 32 ∨ (Rect.block (s := S64x200x8192) S2x200x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S2x199x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x200x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x199x4096 : Shape := ⟨3, ![64, 199, 4096]⟩
abbrev S64x200x8192 : Shape := ⟨3, ![64, 200, 8192]⟩
abbrev S64x199x8192 : Shape := ⟨3, ![64, 199, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x199x4096, .f32⟩
  | .hbm, ⟨1, _⟩ => ⟨S64x200x8192, .f32⟩
  | .hbm, ⟨2, _⟩ => ⟨S64x199x8192, .f32⟩
  | .hbm, ⟨3, _⟩ => ⟨S64x199x4096, .f32⟩
  | .hbm, ⟨4, _⟩ => ⟨S64x199x4096, .f32⟩
  | .hbm, ⟨5, _⟩ => ⟨S_, .f32⟩
  | .hbm, ⟨6, _⟩ => ⟨S64x199x4096, .f32⟩
  | .hbm, ⟨7, _⟩ => ⟨S64x199x4096, .f32⟩
  | .hbm, ⟨8, _⟩ => ⟨S64x199x4096, .f32⟩
  | .hbm, ⟨9, _⟩ => ⟨S64x199x4096, .f32⟩
  | .hbm, ⟨10, _⟩ => ⟨S_, .f32⟩
  | .hbm, ⟨11, _⟩ => ⟨S64x199x4096, .f32⟩
  | .hbm, ⟨12, _⟩ => ⟨S64x199x4096, .f32⟩
  | .hbm, ⟨13, _⟩ => ⟨S_, .f32⟩
  | .hbm, ⟨14, _⟩ => ⟨S64x199x4096, .f32⟩
  | .hbm, ⟨15, _⟩ => ⟨S64x199x4096, .f32⟩
  | .hbm, ⟨16, _⟩ => ⟨S64x199x4096, .f32⟩
  | .hbm, ⟨17, _⟩ => ⟨S64x199x4096, .f32⟩
  | .hbm, ⟨18, _⟩ => ⟨S64x199x4096, .f32⟩
  | .hbm, ⟨19, _⟩ => ⟨S_, .f32⟩
  | .hbm, ⟨20, _⟩ => ⟨S_, .f32⟩
  | .hbm, ⟨21, _⟩ => ⟨S_, .f32⟩
  | _, _ => ⟨S64x199x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  slices_S64x200x8192_S64x199x8192_0_1_0 : S64x200x8192.Slices ![0, 1, 0] S64x199x8192
  slices_S64x199x8192_S64x199x4096_0_0_0 : S64x199x8192.Slices ![0, 0, 0] S64x199x4096
  slices_S64x199x8192_S64x199x4096_0_0_4096 : S64x199x8192.Slices ![0, 0, 4096] S64x199x4096
  bcast_S_S64x199x4096 : S_.BroadcastsInDim S64x199x4096 (![] : Fin 0 → Fin S64x199x4096.rank)
  reducesTo_S64x199x4096_S_d0_1_2 : S64x199x4096.ReducesTo [0, 1, 2] S_
  h_S_ : 0 < S_.numel

variable [Facts₀]

class Facts : Prop extends Facts₀ where

variable [Facts]
-- ==== Proof.CaseValues.lean ====
/-
  What one run of the kernel body leaves behind, as values.

  The body keeps a one-element accumulator. At the first of every sixteen grid points it stores zero there; at every
  point it then loads the accumulator, adds the point's block sum and stores the result back; at the last of every sixteen
  points it also fills the output block with the accumulator's value. Write `step x0 x1 a` for the stored result as a
  function of the prediction block `x0`, the mask block `x1` and the loaded accumulator `a` (the body's second stored
  value, `k0_pay2`), `zero` for the stored zero (`k0_pay1`) and `fill a` for the output block filled from the
  accumulator (`k0_pay3`). Then a first point leaves the accumulator at `step x0 x1 zero`, every other point at
  `step x0 x1 a` over what the point before left, and a last point leaves the output block at `fill` of that. Each
  statement reads a buffer's stores back as one value: a single store covering the whole buffer leaves its value there,
  and a load after such a store reads it. They hold for every float instance.
-/
import proofs.«124269_j89876485636307_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is neither first nor last of its sixteen leaves the accumulator at the step over what it found. -/
theorem acc_middle (c : Dev nD) (i : grid0.Coords) (a2 : Memref sig .tc .vmem S2x199x4096 .f32) (h2 : a2.IsWhole)
    (a3 : Memref sig .tc .vmem S2x200x8192 .f32) (h3 : a3.IsWhole) (a4 : Memref sig .tc .vmem S1x8x128 .f32) (h4 : a4.IsWhole)
    (a5 : Memref sig .tc .vmem S1x1 .f32) (h5 : a5.IsWhole) (hc0 : ¬cond0_0 i) (hc1 : ¬cond0_1 i)
    (x0 : Vec F S2x199x4096 .f32) (x1 : Vec F S2x200x8192 .f32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread, View.ld_unit_zero (S := S2x199x4096) hz3,
    View.ld_unit_zero (S := S2x200x8192) hz3, View.ld_unit_zero (S := S1x1) hz2]

/-- A last point leaves the accumulator at the step over what it found, -/
theorem acc_last (c : Dev nD) (i : grid0.Coords) (a2 : Memref sig .tc .vmem S2x199x4096 .f32) (h2 : a2.IsWhole)
    (a3 : Memref sig .tc .vmem S2x200x8192 .f32) (h3 : a3.IsWhole) (a4 : Memref sig .tc .vmem S1x8x128 .f32) (h4 : a4.IsWhole)
    (a5 : Memref sig .tc .vmem S1x1 .f32) (h5 : a5.IsWhole) (hc0 : ¬cond0_0 i) (hc1 : cond0_1 i)
    (x0 : Vec F S2x199x4096 .f32) (x1 : Vec F S2x200x8192 .f32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S2x199x4096) hz3,
    View.ld_unit_zero (S := S2x200x8192) hz3, View.ld_unit_zero (S := S1x1) hz2]

/-- and the output block filled with that value: the fill reads the accumulator back after the step was stored. -/
theorem out_last (c : Dev nD) (i : grid0.Coords) (a2 : Memref sig .tc .vmem S2x199x4096 .f32) (h2 : a2.IsWhole)
    (a3 : Memref sig .tc .vmem S2x200x8192 .f32) (h3 : a3.IsWhole) (a4 : Memref sig .tc .vmem S1x8x128 .f32) (h4 : a4.IsWhole)
    (a5 : Memref sig .tc .vmem S1x1 .f32) (h5 : a5.IsWhole) (hc0 : ¬cond0_0 i) (hc1 : cond0_1 i)
    (x0 : Vec F S2x199x4096 .f32) (x1 : Vec F S2x200x8192 .f32) (xs0 : Vec F S1x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1) _ hz2]
  simp only [View.readAt_eq_ld, h2.read_unread, h3.read_unread, h5.read_unread, View.ld_unit_zero (S := S2x199x4096) hz3,
    View.ld_unit_zero (S := S2x200x8192) hz3, View.ld_unit_zero (S := S1x1) hz2]

/-- A first point stores zero, reads it back, and leaves the step over zero. -/
theorem acc_first (c : Dev nD) (i : grid0.Coords) (a2 : Memref sig .tc .vmem S2x199x4096 .f32) (h2 : a2.IsWhole)
    (a3 : Memref sig .tc .vmem S2x200x8192 .f32) (h3 : a3.IsWhole) (a4 : Memref sig .tc .vmem S1x8x128 .f32) (h4 : a4.IsWhole)
    (a5 : Memref sig .tc .vmem S1x1 .f32) (h5 : a5.IsWhole) (hc0 : cond0_0 i) (hc1 : ¬cond0_1 i)
    (x0 : Vec F S2x199x4096 .f32) (x1 : Vec F S2x200x8192 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h5.read_unread, View.ld_unit_zero (S := S2x199x4096) hz3,
    View.ld_unit_zero (S := S2x200x8192) hz3, View.ld_unit_zero (S := S1x1) hz2]

end Cert.KernelIdeal.CaseValues

end
-- ==== Proof.LossSpec.lean ====
/-
  The loss as one function of the two argument arrays, and the arithmetic that regroups its sum.

  With `pred : [64, 199, 4096]` and `batch : [64, 200, 8192]`, position `(b, t, q)` contributes
      batch[b, t+1, q] · log (pred[b, t, q] + ε)  +  batch[b, t+1, 4096 + q] · log ((1 - pred[b, t, q]) + ε)
  and the loss is minus the sum of the contributions over every position.

  The 64 batch rows are cut into 32 blocks of two rows. Writing `B s` for the sum of the contributions of block `s`,
  a running total that is reset at the blocks `0` and `16` and grows by `B s` at block `s` holds, after block `n`,
  the sum of `B` over `16·⌊n/16⌋ … n`; the totals after blocks `15` and `31` add up to the sum of every `B s`, and that
  is the sum over every position, because `(s, y) ↦ (2s + y₀, y₁, y₂)` is a bijection from block and position-in-block
  to positions. Only commutativity and associativity of addition are used, so all of it holds on the extended reals
  with no finiteness assumption.
-/
import Idealize.ShloMosaic.PureOps.Ideal
import Idealize.ShloMosaic.PureOps.Ideal.Laws
import Idealize.ShloMosaic.Lib.ValueIdx

noncomputable section

open scoped BigOperators

namespace Cert.LossSpec

open Idealize.ShloMosaic Idealize.ShloMosaic.ValueIdx

/-! ## One position's contribution -/

/-- The small constant added inside both logarithms (the f32 nearest to 1e-8, as an extended real). -/
def eps : EReal := Ideal.ofBits .f32 0x322BCC77#32
/-- The constant one. -/
def one : EReal := Ideal.ofBits .f32 0x3F800000#32

/-- A position's contribution from its prediction `p` and its two masks `a` (answered correctly) and `b` (answered
    incorrectly): `a · log (p + ε) + b · log ((1 - p) + ε)`. -/
def term (p a b : EReal) : EReal := a * Ideal.log (p + eps) + b * Ideal.log (one - p + eps)

/-- Where position `(b, t, q)` reads its first mask: `batch[b, t+1, q]`. -/
abbrev hit {nb : Nat} (b : Fin nb) (t : Fin 199) (q : Fin 4096) : (⟨3, ![nb, 200, 8192]⟩ : Shape).Idx :=
  ix3 b (⟨1 + t.val, by omega⟩ : Fin 200) (⟨q.val, by omega⟩ : Fin 8192)
/-- Where it reads its second mask: `batch[b, t+1, 4096 + q]`. -/
abbrev miss {nb : Nat} (b : Fin nb) (t : Fin 199) (q : Fin 4096) : (⟨3, ![nb, 200, 8192]⟩ : Shape).Idx :=
  ix3 b (⟨1 + t.val, by omega⟩ : Fin 200) (⟨4096 + q.val, by omega⟩ : Fin 8192)

/-- The contribution of position `j` of arrays with `nb` batch rows (64 for the whole arrays, 2 for a block). -/
def elt {nb : Nat} (pred : (⟨3, ![nb, 199, 4096]⟩ : Shape).Idx → EReal)
    (batch : (⟨3, ![nb, 200, 8192]⟩ : Shape).Idx → EReal) (j : (⟨3, ![nb, 199, 4096]⟩ : Shape).Idx) : EReal :=
  term (pred j) (batch (hit (j 0) (j 1) (j 2))) (batch (miss (j 0) (j 1) (j 2)))

/-- The loss: minus the sum of every position's contribution. -/
def loss (pred : (⟨3, ![64, 199, 4096]⟩ : Shape).Idx → EReal) (batch : (⟨3, ![64, 200, 8192]⟩ : Shape).Idx → EReal) : EReal :=
  -(∑ j, elt pred batch j)

/-! ## Blocks of two batch rows -/

/-- Position `y` of block `s` of the predictions is position `(2s + y₀, y₁, y₂)` of the whole array. -/
abbrev rowOf (s : Fin 32) (y : (⟨3, ![2, 199, 4096]⟩ : Shape).Idx) : (⟨3, ![64, 199, 4096]⟩ : Shape).Idx :=
  ix3 (⟨2 * s.val + (y 0).val, by have h : (y 0).val < 2 := (y 0).isLt; have := s.isLt; omega⟩ : Fin 64) (y 1) (y 2)
/-- The same for the masks' array. -/
abbrev rowOfB (s : Fin 32) (z : (⟨3, ![2, 200, 8192]⟩ : Shape).Idx) : (⟨3, ![64, 200, 8192]⟩ : Shape).Idx :=
  ix3 (⟨2 * s.val + (z 0).val, by have h : (z 0).val < 2 := (z 0).isLt; have := s.isLt; omega⟩ : Fin 64) (z 1) (z 2)

/-- A position of a block contributes what the same position of the whole arrays contributes. -/
theorem elt_block (pred : (⟨3, ![64, 199, 4096]⟩ : Shape).Idx → EReal) (batch : (⟨3, ![64, 200, 8192]⟩ : Shape).Idx → EReal)
    (s : Fin 32) (y : (⟨3, ![2, 199, 4096]⟩ : Shape).Idx) :
    elt (nb := 2) (fun y => pred (rowOf s y)) (fun z => batch (rowOfB s z)) y = elt pred batch (rowOf s y) := by
  unfold elt
  have e1 : rowOfB s (hit (y 0) (y 1) (y 2)) = hit ((rowOf s y) 0) ((rowOf s y) 1) ((rowOf s y) 2) := by
    funext a; match a with | ⟨0, _⟩ => rfl | ⟨1, _⟩ => rfl | ⟨2, _⟩ => rfl
  have e2 : rowOfB s (miss (y 0) (y 1) (y 2)) = miss ((rowOf s y) 0) ((rowOf s y) 1) ((rowOf s y) 2) := by
    funext a; match a with | ⟨0, _⟩ => rfl | ⟨1, _⟩ => rfl | ⟨2, _⟩ => rfl
  show term _ (batch (rowOfB s _)) (batch (rowOfB s _)) = _
  rw [e1, e2]
  rfl

/-- Block and position-in-block are the positions of the whole array. -/
def rowEquiv : Fin 32 × (⟨3, ![2, 199, 4096]⟩ : Shape).Idx ≃ (⟨3, ![64, 199, 4096]⟩ : Shape).Idx where
  toFun p := rowOf p.1 p.2
  invFun j := (⟨(j 0).val / 2, by have h : (j 0).val < 64 := (j 0).isLt; omega⟩,
    ix3 (⟨(j 0).val % 2, by omega⟩ : Fin 2) (j 1) (j 2))
  left_inv := by
    rintro ⟨s, y⟩
    have h0 : (y 0).val < 2 := (y 0).isLt
    refine Prod.ext (Fin.ext ?_) (funext fun a => ?_)
    · show (2 * s.val + (y 0).val) / 2 = s.val
      omega
    · match a with
      | ⟨0, _⟩ => exact Fin.ext (by show (2 * s.val + (y 0).val) % 2 = (y 0).val; omega)
      | ⟨1, _⟩ => rfl
      | ⟨2, _⟩ => rfl
  right_inv := by
    intro j
    funext a
    match a with
    | ⟨0, _⟩ => exact Fin.ext (by show 2 * ((j 0).val / 2) + (j 0).val % 2 = (j 0).val; omega)
    | ⟨1, _⟩ => rfl
    | ⟨2, _⟩ => rfl

/-- So summing block by block is summing over every position. -/
theorem sum_rows {M : Type*} [AddCommMonoid M] (f : (⟨3, ![64, 199, 4096]⟩ : Shape).Idx → M) :
    ∑ s : Fin 32, ∑ y : (⟨3, ![2, 199, 4096]⟩ : Shape).Idx, f (rowOf s y) = ∑ j, f j := by
  rw [← Fintype.sum_prod_type']
  exact Fintype.sum_equiv rowEquiv _ _ (fun _ => rfl)

/-! ## A running total reset every sixteen blocks -/

section Running
variable {M : Type*} [AddCommMonoid M]

/-- A family over the 32 blocks, read at any natural number (zero past the end). -/
def at0 (B : Fin 32 → M) (k : ℕ) : M := if h : k < 32 then B ⟨k, h⟩ else 0

/-- Below 32 it reads the family. -/
theorem at0_of_lt (B : Fin 32 → M) (k : ℕ) (h : k < 32) : at0 B k = B ⟨k, h⟩ := dif_pos h

/-- The running total after block `n`: the sum of `B` from the last reset, at `16·⌊n/16⌋`, through `n`. -/
def acc (B : Fin 32 → M) (n : ℕ) : M := ∑ k ∈ Finset.range (n % 16 + 1), at0 B (16 * (n / 16) + k)

/-- At a reset block the total is that block's sum. -/
theorem acc_first (B : Fin 32 → M) (n : ℕ) (h : n % 16 = 0) : acc B n = at0 B n := by
  unfold acc
  rw [h, Finset.sum_range_one]
  exact congrArg (at0 B) (by omega)

/-- At any other block it is the total before plus that block's sum. -/
theorem acc_step (B : Fin 32 → M) (n : ℕ) (h : ¬n % 16 = 0) : acc B n = acc B (n - 1) + at0 B n := by
  unfold acc
  have h1 : n % 16 + 1 = ((n - 1) % 16 + 1) + 1 := by omega
  have h2 : n / 16 = (n - 1) / 16 := by omega
  rw [h1, Finset.sum_range_succ, h2]
  exact congrArg (_ + at0 B ·) (by omega)

/-- The totals after blocks 15 and 31 add up to the sum over all 32 blocks. -/
theorem acc_total (B : Fin 32 → M) : acc B 15 + acc B 31 = ∑ s : Fin 32, B s := by
  have e : ∑ s : Fin 32, B s = ∑ k ∈ Finset.range 32, at0 B k := by
    rw [← Fin.sum_univ_eq_sum_range]
    exact Finset.sum_congr rfl fun s _ => by unfold at0; rw [dif_pos s.isLt]
  rw [e, show (32 : ℕ) = 16 + 16 from rfl, Finset.sum_range_add]
  show ∑ k ∈ Finset.range 16, at0 B (16 * 0 + k) + ∑ k ∈ Finset.range 16, at0 B (16 * 1 + k) = _
  simp only [Nat.mul_zero, Nat.zero_add, Nat.mul_one]

end Running

end Cert.LossSpec

end
-- ==== Proof.BlockStep.lean ====
/-
  The body's arithmetic on the extended reals.

  One step of the accumulator adds, to the value `a` it finds, the sum over the positions `y` of the point's block of
  the position's contribution (LossSpec's `elt`, read off the prediction block and the mask block): the two masks are the
  two halves, along the last axis, of the mask block without its first step; the per-position products and logarithms are
  taken position by position; the sum over the block's three axes, taken into a one-element vector, is the sum over every
  position; the shape changes around it move no value. The stored zero is the real number zero, and the output block is
  the accumulator's one element at every position.
-/
import proofs.«124269_j89876485636307_1_alg».proof.Proof.Gen.KernelIdeal.Skeleton
import proofs.«124269_j89876485636307_1_alg».proof.Proof.LossSpec
import Idealize.ShloMosaic.Lib.Pipeline.Value
import Idealize.ShloMosaic.PureOps.Ideal.Laws

noncomputable section

open scoped BigOperators
open Idealize.ShloMosaic Idealize.ShloMosaic.ValueIdx

namespace Cert.KernelIdeal.BlockStep

open Cert.KernelIdeal Cert.KernelIdeal.Gen Cert.LossSpec

/-- The first mask of position `y` of a block: the mask block without its first step, first half of the last axis. -/
theorem first_mask {α : Type} (x1 : S2x200x8192.Idx → α) (y : S2x199x4096.Idx) :
    extractStridedSlice S2x199x4096 ![0, 0, 0]
        (extractStridedSlice S2x199x8192 ![0, 1, 0] x1 slices_S2x200x8192_o0_1_0_S2x199x8192)
        slices_S2x199x8192_o0_0_0_S2x199x4096 y
      = x1 (hit (y 0) (y 1) (y 2)) := by
  have h2 : (y 2).val < 4096 := (y 2).isLt
  refine (extractStridedSlice_apply _ _ _ y (ix3 (y 0) (y 1) (⟨(y 2).val, by omega⟩ : Fin 8192)) fun a => ?_).trans
    (extractStridedSlice_apply _ x1 _ _ (hit (y 0) (y 1) (y 2)) fun a => ?_)
  · match a with
    | ⟨0, _⟩ => show (y 0).val = 0 + (y 0).val; omega
    | ⟨1, _⟩ => show (y 1).val = 0 + (y 1).val; omega
    | ⟨2, _⟩ => show (y 2).val = 0 + (y 2).val; omega
  · match a with
    | ⟨0, _⟩ => show (y 0).val = 0 + (y 0).val; omega
    | ⟨1, _⟩ => show 1 + (y 1).val = 1 + (y 1).val; omega
    | ⟨2, _⟩ => show (y 2).val = 0 + (y 2).val; omega

/-- The second mask: the same, second half of the last axis. -/
theorem second_mask {α : Type} (x1 : S2x200x8192.Idx → α) (y : S2x199x4096.Idx) :
    extractStridedSlice S2x199x4096 ![0, 0, 4096]
        (extractStridedSlice S2x199x8192 ![0, 1, 0] x1 slices_S2x200x8192_o0_1_0_S2x199x8192)
        slices_S2x199x8192_o0_0_4096_S2x199x4096 y
      = x1 (miss (y 0) (y 1) (y 2)) := by
  have h2 : (y 2).val < 4096 := (y 2).isLt
  refine (extractStridedSlice_apply _ _ _ y (ix3 (y 0) (y 1) (⟨4096 + (y 2).val, by omega⟩ : Fin 8192)) fun a => ?_).trans
    (extractStridedSlice_apply _ x1 _ _ (miss (y 0) (y 1) (y 2)) fun a => ?_)
  · match a with
    | ⟨0, _⟩ => show (y 0).val = 0 + (y 0).val; omega
    | ⟨1, _⟩ => show (y 1).val = 0 + (y 1).val; omega
    | ⟨2, _⟩ => show 4096 + (y 2).val = 4096 + (y 2).val; omega
  · match a with
    | ⟨0, _⟩ => show (y 0).val = 0 + (y 0).val; omega
    | ⟨1, _⟩ => show 1 + (y 1).val = 1 + (y 1).val; omega
    | ⟨2, _⟩ => show 4096 + (y 2).val = 0 + (4096 + (y 2).val); omega

/-- The one element of a vector, recast to four unit axes, extracted and broadcast to the accumulator's shape. -/
theorem the_element {α : Type} (M : S1.Idx → α) (j : S1x1.Idx) :
    broadcast S1x1 (extractAt ![0, 0, 0, 0] (shapeCast S1x1x1x1 M shapeCasts_S1_S1x1x1x1) inpos_S1x1x1x1_p0_0_0_0) j
      = M (Shape.reshapeEquiv shapeCasts_S1_S1x1x1x1 fun a => ⟨![0, 0, 0, 0] a, inpos_S1x1x1x1_p0_0_0_0 a⟩) := rfl

/-- Recasting a block under a leading unit axis moves no value, so it keeps the sum. -/
theorem sum_recast (W : S2x199x4096.Idx → EReal) :
    ∑ i : S1x2x199x4096.Idx, shapeCast S1x2x199x4096 W shapeCasts_S2x199x4096_S1x2x199x4096 i = ∑ y, W y :=
  Equiv.sum_comp (Shape.reshapeEquiv shapeCasts_S2x199x4096_S1x2x199x4096) W

/-- The pointwise arithmetic at one position, for any two mask vectors `A` and `B`. -/
theorem pointwise (A B x0 : FVec Ideal S2x199x4096 .f32) (y : S2x199x4096.Idx) :
    addf (mulf A (log (addf x0 (broadcast S2x199x4096 (FloatOps.ofBits (F := Ideal) .f32 0x322BCC77#32)))))
        (mulf B (log (addf (subf (broadcast S2x199x4096 (FloatOps.ofBits (F := Ideal) .f32 0x3F800000#32)) x0)
          (broadcast S2x199x4096 (FloatOps.ofBits (F := Ideal) .f32 0x322BCC77#32))))) y
      = term (x0 y) (A y) (B y) := rfl

/-- One step of the accumulator: what it found plus the sum of the block's contributions. -/
theorem step_apply (x0 : Vec Ideal S2x199x4096 .f32) (x1 : Vec Ideal S2x200x8192 .f32) (xs : Vec Ideal S1x1 .f32) (j : S1x1.Idx) :
    k0_pay2 (F := Ideal) x0 x1 xs j = xs j + ∑ y : S2x199x4096.Idx, elt (nb := 2) x0 x1 y := by
  unfold k0_pay2
  dsimp only
  refine (congrFun (shapeCast_self _ _) j).trans ?_
  show xs j + _ = xs j + _
  refine congrArg (xs j + ·) ?_
  refine (the_element _ j).trans ?_
  refine (Ideal.multiReduction_add_total _ _ _ (fun b => ?_) _ _ _).trans ?_
  · match b with
    | ⟨0, _⟩ => rfl
  refine (sum_recast _).trans ?_
  refine Finset.sum_congr rfl fun y _ => ?_
  refine (pointwise _ _ x0 y).trans ?_
  rw [first_mask x1 y, second_mask x1 y]
  rfl

/-- The stored zero. -/
theorem zero_apply (j : S1x1.Idx) : k0_pay1 (F := Ideal) j = 0 := by
  unfold k0_pay1
  refine (congrFun (shapeCast_self _ _) j).trans ?_
  exact Ideal.ofBits_zero_f32

/-- The output block holds the accumulator's element at every position. -/
theorem fill_apply (a : EReal) (j : S1x8x128.Idx) : k0_pay3 (F := Ideal) (fun _ => a) j = a := rfl

end Cert.KernelIdeal.BlockStep

end
-- ==== Proof.RunningTotal.lean ====
/-
  What the accumulator and the output block hold after each grid point, on the extended reals.

  Grid point `t` (of 32, in row-major order of the 2 × 16 grid) stages block `t` of the predictions and of the masks: rows
  `2t` and `2t + 1`. Its block sum is `B t`, the sum of the contributions of those rows' positions. The accumulator is
  reset at the points `0` and `16` and grows by the point's block sum at every point, so after point `n` it holds LossSpec's
  running total `acc B n`, by induction on the point; and at the points `15` and `31` the output block is filled with it.
-/
import proofs.«124269_j89876485636307_1_alg».proof.Proof.Gen.KernelIdeal.Frame
import proofs.«124269_j89876485636307_1_alg».proof.Proof.CaseValues
import proofs.«124269_j89876485636307_1_alg».proof.Proof.BlockStep
import proofs.«124269_j89876485636307_1_alg».proof.Proof.LossSpec

noncomputable section

open scoped BigOperators
open Idealize.ShloMosaic Idealize.ShloMosaic.TcCoe Idealize.SL.Sem Idealize.ShloMosaic.ValueIdx

namespace Cert.KernelIdeal.RunningTotal

open Cert.KernelIdeal Cert.KernelIdeal.Gen Cert.LossSpec

variable (m : (ℓ : Loc nD τ sig) → Buf (Elt Ideal) ℓ)

/-- The predictions and the masks as core `c` finds them when the grid starts. -/
abbrev pred (c : Dev nD) : S64x199x4096.Idx → EReal := V m c main_arg0
abbrev batch (c : Dev nD) : S64x200x8192.Idx → EReal := V m c main_arg1

/-- The block sum of block `s`: the contributions of the positions of rows `2s` and `2s + 1`. -/
def B (c : Dev nD) (s : Fin 32) : EReal := ∑ y : S2x199x4096.Idx, elt (pred m c) (batch m c) (rowOf s y)

/-- Point `t` stages block `t` of both inputs, at offset zero on the other two axes. -/
theorem idx_in : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The staged prediction block at position `y` is the array at row `2t + y₀`. -/
theorem pred_block (c : Dev nD) (t : Fin cfg0.N) (ht : t.val < 32) (y : S2x199x4096.Idx) :
    (iblk m c 0 t : Vec Ideal S2x199x4096 .f32) y = pred m c (rowOf ⟨t.val, ht⟩ y) := by
  obtain ⟨e0, e1, e2, -, -, -⟩ := idx_in t
  show V m c main_arg0 (((cfg0.win 0).blk t).view.emb y) = V m c main_arg0 _
  refine congrArg (V m c main_arg0) (funext fun a => Fin.ext ?_)
  match a with
  | ⟨0, _⟩ => show win0_0.index t (0 : Fin 3) * 2 + 1 * (y 0).val = 2 * t.val + (y 0).val; omega
  | ⟨1, _⟩ => show win0_0.index t (1 : Fin 3) * 199 + 1 * (y 1).val = (y 1).val; omega
  | ⟨2, _⟩ => show win0_0.index t (2 : Fin 3) * 4096 + 1 * (y 2).val = (y 2).val; omega

/-- The staged mask block likewise. -/
theorem batch_block (c : Dev nD) (t : Fin cfg0.N) (ht : t.val < 32) (z : S2x200x8192.Idx) :
    (iblk m c 1 t : Vec Ideal S2x200x8192 .f32) z = batch m c (rowOfB ⟨t.val, ht⟩ z) := by
  obtain ⟨-, -, -, e0, e1, e2⟩ := idx_in t
  show V m c main_arg1 (((cfg0.win 1).blk t).view.emb z) = V m c main_arg1 _
  refine congrArg (V m c main_arg1) (funext fun a => Fin.ext ?_)
  match a with
  | ⟨0, _⟩ => show win0_1.index t (0 : Fin 3) * 2 + 1 * (z 0).val = 2 * t.val + (z 0).val; omega
  | ⟨1, _⟩ => show win0_1.index t (1 : Fin 3) * 200 + 1 * (z 1).val = (z 1).val; omega
  | ⟨2, _⟩ => show win0_1.index t (2 : Fin 3) * 8192 + 1 * (z 2).val = (z 2).val; omega

/-- So the contributions of the staged blocks' positions add up to the block sum. -/
theorem block_sum (c : Dev nD) (t : Fin cfg0.N) (ht : t.val < 32) :
    ∑ y : S2x199x4096.Idx, elt (nb := 2) (iblk m c 0 t) (iblk m c 1 t) y = B m c ⟨t.val, ht⟩ := by
  have e0 : (iblk m c 0 t : Vec Ideal S2x199x4096 .f32) = fun y => pred m c (rowOf ⟨t.val, ht⟩ y) :=
    funext (pred_block m c t ht)
  have e1 : (iblk m c 1 t : Vec Ideal S2x200x8192 .f32) = fun z => batch m c (rowOfB ⟨t.val, ht⟩ z) :=
    funext (batch_block m c t ht)
  refine Finset.sum_congr rfl fun y _ => ?_
  exact (congrArg₂ (fun a b => elt (nb := 2) a b y) e0 e1).trans (elt_block _ _ _ y)

/-- One step at point `t` over an accumulator holding `a` leaves `a + B t`. -/
theorem step_const (c : Dev nD) (t : Fin cfg0.N) (ht : t.val < 32) (xs : Vec Ideal S1x1 .f32) (a : EReal)
    (hx : xs = fun _ => a) :
    k0_pay2 (F := Ideal) (iblk m c 0 t) (iblk m c 1 t) xs = fun _ => a + B m c ⟨t.val, ht⟩ := by
  funext j
  refine (BlockStep.step_apply (iblk m c 0 t) (iblk m c 1 t) xs j).trans ?_
  rw [block_sum m c t ht, hx]

/-- At a reset point the accumulator is left at the step over the stored zero. -/
theorem acc_at_reset (c : Dev nD) (t : Fin cfg0.N) (h0 : t.val % 16 = 0) :
    (outsAt0 m c t.val t.isLt).2 = k0_pay2 (iblk m c 0 t) (iblk m c 1 t) (k0_pay1 (F := Ideal)) := by
  have h1 : ¬t.val % 16 = 15 := by omega
  rw [outsAt0_A m c t h0 h1]
  dsimp only
  exact CaseValues.acc_first (F := Ideal) c (grid0.coords t) (ms0_0 t) (hs0_0 t) (ms0_1 t) (hs0_1 t) (ms0_2 t) (hs0_2 t) scM0_0
      (Memref.isWhole_whole _) ((hcond0_0 t).mpr h0) (fun h => h1 ((hcond0_1 t).mp h)) (iblk m c 0 t) (iblk m c 1 t)

/-- At any other point it is left at the step over what the point before left. -/
theorem acc_at_next (c : Dev nD) (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · rw [outsAt0_C m c t h0 h1]
    dsimp only
    exact CaseValues.acc_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact CaseValues.acc_middle (F := Ideal) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- THE ACCUMULATOR after point `n` holds the running total of the block sums. -/
theorem acc_eq (c : Dev nD) : ∀ (n : ℕ) (hn : n < cfg0.N), (outsAt0 m c n hn).2 = fun _ => acc (B m c) n := by
  have hN : cfg0.N = 32 := N_0
  intro n
  induction n using Nat.strong_induction_on with
  | _ n ih =>
    intro hn
    have hn32 : n < 32 := by omega
    by_cases h0 : n % 16 = 0
    · refine (acc_at_reset m c ⟨n, hn⟩ h0).trans ?_
      refine (step_const m c ⟨n, hn⟩ hn32 (k0_pay1 (F := Ideal)) 0 (funext BlockStep.zero_apply)).trans ?_
      funext _
      rw [zero_add, LossSpec.acc_first _ n h0, at0_of_lt _ n hn32]
    · refine (acc_at_next m c ⟨n, hn⟩ h0).trans ?_
      refine (step_const m c ⟨n, hn⟩ hn32 _ (acc (B m c) (n - 1)) (ih (n - 1) (by omega) _)).trans ?_
      funext _
      rw [LossSpec.acc_step _ n h0, at0_of_lt _ n hn32]

/-- THE OUTPUT BLOCK at a last point is filled with the running total. -/
theorem out_eq (c : Dev nD) (t : Fin cfg0.N) (h1 : t.val % 16 = 15) :
    (outsAt0 m c t.val t.isLt).1 = fun _ => acc (B m c) t.val := by
  have h0 : ¬t.val % 16 = 0 := by omega
  have e : (outsAt0 m c t.val t.isLt).1 = k0_pay3 (outsAt0 m c t.val t.isLt).2 := by
    rw [outsAt0_C m c t h0 h1]
    dsimp only
    exact (CaseValues.out_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
      (congrArg k0_pay3 (CaseValues.acc_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm)
  rw [e, acc_eq m c t.val t.isLt]
  rfl

end Cert.KernelIdeal.RunningTotal

end
-- ==== Proof.ResultArray.lean ====
/-
  What the kernel's output array holds after the grid.

  The output array has two rows of an 8 × 128 tile each; row `o` is written back once, at grid point `16·o + 15`, with the
  tile the body filled there. So after the grid, row `o` holds the running total after point `16·o + 15` at every
  position of its tile: the two write-backs' blocks are rows 0 and 1, and together they cover the array.
-/
import proofs.«124269_j89876485636307_1_alg».proof.Proof.RunningTotal
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.ResultArray

open Cert.KernelIdeal Cert.KernelIdeal.Gen Cert.LossSpec Cert.KernelIdeal.RunningTotal

variable (m : (ℓ : Loc nD τ sig) → Buf (Elt Ideal) ℓ)

/-- Row `o` of the output array: the running total after point `16·o + 15`, at every position. -/
abbrev partials (c : Dev nD) : S2x8x128.Idx → EReal := fun i => acc (B m c) (16 * (i 0).val + 15)

/-- Point `t` writes its output block at row `⌊t/16⌋`, offset zero on the tile's axes. -/
theorem idx_out : ∀ t : Fin cfg0.N,
    win0_2.index t (0 : Fin 3) = t.val / 16 ∧ win0_2.index t (1 : Fin 3) = 0 ∧ win0_2.index t (2 : Fin 3) = 0 :=
  (by decide +kernel : ∀ t : Fin grid0.N, _)

/-- What a write-back writes is its row of `partials`. -/
theorem flushed_eq (c : Dev nD) (t : Fin cfg0.N) (hf : (cfg0.win 2).flush t = true) :
    (dats m 0 c).flushed 2 t = ((cfg0.win 2).blk t).view.read (Elt Ideal) (partials m c) := by
  have h15 : t.val % 16 = 15 := (flush0_2 t).mp hf
  obtain ⟨e0, -, -⟩ := idx_out t
  show (cfg0.win 2).cut (grid0.coords t) ((dats m 0 c).after 2 t) = _
  rw [after0_2, out_eq m c t h15]
  funext y
  have hy : (y 0).val < 1 := (y 0).isLt
  show acc (B m c) t.val = acc (B m c) (16 * (win0_2.index t (0 : Fin 3) * 1 + 1 * (y 0).val) + 15)
  exact congrArg (acc (B m c)) (by omega)

/-- An index is in point `t`'s output block iff each coordinate is in the block's range. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Every index of the output array is in the block written back at the last point of its row. -/
theorem cover (i : S2x8x128.Idx) :
    ∃ t : Fin cfg0.N, (cfg0.win 2).flush t = true ∧ i ∈ ((cfg0.win 2).blk t).view.set := by
  have hN : cfg0.N = 32 := N_0
  have h0 : (i 0).val < 2 := (i 0).isLt
  have h1 : (i 1).val < 8 := (i 1).isLt
  have h2 : (i 2).val < 128 := (i 2).isLt
  obtain ⟨t, ht⟩ : ∃ t : Fin cfg0.N, t.val = 16 * (i 0).val + 15 := ⟨⟨16 * (i 0).val + 15, by omega⟩, rfl⟩
  obtain ⟨e0, e1, e2⟩ := idx_out t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- THE OUTPUT ARRAY after the grid. -/
theorem final (c : Dev nD) : (dats m 0 c).arrAt 2 cfg0.N = partials m c :=
  (dats m 0 c).arrAt_eq_of_cover 2 (partials m c) (flushed_eq m c) cover

end Cert.KernelIdeal.ResultArray

end
-- ==== Proof.LossRun.lean ====
/-
  The kernel program computes the loss.

  After the grid the program takes element `[o, 0, 0]` of each of the two rows of the output array, adds the two from zero,
  and negates. Row `o` holds the running total after point `16·o + 15`, so the two elements are the totals after the
  points 15 and 31; their sum is the sum of all 32 block sums, which is the sum of every position's contribution; minus
  that is the loss of the two argument arrays.
-/
import proofs.«124269_j89876485636307_1_alg».proof.Proof.ResultArray
import Idealize.ShloMosaic.Lib.Pipeline.Value
import Idealize.ShloMosaic.Lib.StableHlo.Run
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.LossRun

open Cert.KernelIdeal Cert.KernelIdeal.Gen Cert.LossSpec Cert.KernelIdeal.RunningTotal Cert.KernelIdeal.ResultArray

variable (m : (ℓ : Loc nD τ sig) → Buf (Elt Ideal) ℓ) (ρ : Dev nD → PrngReg)

/-- A vector of two elements is indexed by `Fin 2`. -/
def twoEquiv : S2.Idx ≃ Fin 2 where
  toFun k := k 0
  invFun o := ix1 o
  left_inv k := (eq_ix1 k).symm
  right_inv _ := rfl

/-- The host's sum of a two-element vector from zero is the sum of its two elements. -/
theorem host_sum (y : S2.Idx → EReal) (i : S_.Idx) :
    Host.reduceAdd (F := Ideal) (φ := .f32) y (constant S_ .f32 0x00000000#32) reducesTo_S2_S_d0 h_S_ i
      = y (ix1 (0 : Fin 2)) + y (ix1 (1 : Fin 2)) := by
  unfold Host.reduceAdd
  rw [Ideal.hostReduceAdd_def]
  refine (Ideal.hostReduceAdd_total reducesTo_S2_S_d0 (fun b => b.elim0) y _ i).trans ?_
  show Ideal.ofBits .f32 0x00000000#32 + ∑ k : S2.Idx, y k = _
  rw [Ideal.ofBits_zero_f32, zero_add]
  exact (Fintype.sum_equiv twoEquiv y (fun o => y (ix1 o)) fun k => congrArg y (eq_ix1 k)).trans (Fin.sum_univ_two _)

/-- Element `o` of the sliced and flattened output array is the array at `[o, 0, 0]`. -/
theorem tail_entry (A : S2x8x128.Idx → EReal) (o : Fin 2) :
    shapeCast S2 (extractStridedSlice S2x1x1 ![0, 0, 0] A slices_S2x8x128_S2x1x1_0_0_0) shapeCasts_S2x1x1_S2 (ix1 o)
      = A (ix3 o (0 : Fin 8) (0 : Fin 128)) := by
  have e1 : (S2x1x1.rowMajor (ix3 o (0 : Fin 1) (0 : Fin 1))).val = (o.val * 1 + 0) * 1 + 0 := Shape.rowMajor_val_three _
  have e2 : (S2.rowMajor (ix1 o)).val = o.val := Shape.rowMajor_val_one _
  refine (shapeCast_apply _ _ (ix1 o) (ix3 o (0 : Fin 1) (0 : Fin 1)) (by rw [e1, e2]; omega)).trans
    (extractStridedSlice_apply _ A _ _ _ fun a => ?_)
  match a with
  | ⟨0, _⟩ => show o.val = 0 + o.val; omega
  | ⟨1, _⟩ => rfl
  | ⟨2, _⟩ => rfl

/-- The output array as the host operations after the grid find it. -/
theorem out_array (c : Dev nD) :
    Pipeline.withArrays (cfgs 0).spec c (V0 m c) (fun w => (dats m 0 c).arrAt w (cfgs 0).N) (Proc.devRef .tc main_v0)
      = partials m c :=
  (Pipeline.withArrays_arr spec0 launch0.win.arr_inj c _ _ 2).trans (final m c)

/-- THE PROGRAM'S RESULT is the loss of the argument arrays as the program finds them. -/
theorem tail_value (c : Dev nD) :
    Pipeline.afterTail₀ cfgs (dats m) 0 (V0 m) [hostOps1] c main_v4 = fun _ => loss (pred m c) (batch m c) := by
  unfold Pipeline.afterTail₀
  show StableHlo.after hostOps1 _ (Proc.devRef .tc main_v4) = _
  after_results
  rw [out_array m c]
  funext i
  show -(Host.reduceAdd (F := Ideal) (φ := .f32)
      (fun k => shapeCast S2 (extractStridedSlice S2x1x1 ![0, 0, 0] (partials m c) slices_S2x8x128_S2x1x1_0_0_0) shapeCasts_S2x1x1_S2 k)
      (constant S_ .f32 0x00000000#32) reducesTo_S2_S_d0 h_S_ i) = _
  rw [host_sum, tail_entry, tail_entry]
  show -(acc (B m c) 15 + acc (B m c) 31) = _
  rw [acc_total]
  unfold loss B
  rw [sum_rows fun j => elt (pred m c) (batch m c) j]

/-- The run, read: the result at the loss, the arguments unchanged. -/
theorem run : θ_run defs (onTc (τ := τ) (main (F := Ideal))) ⟨m, fun _ => 0, ρ⟩ fun r => ∀ c : Dev nD,
      r.2.mem ((c.tc : Thread nD τ).loc main_v4)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v4 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.LossRun

end
-- ==== Proof.ReferenceLoss.lean ====
/-
  The reference computes the loss.

  Read one operation at a time, the reference's summand at position `j = (b, t, q)` is
  `batch[b, t+1, q] · log (pred[j] + ε) + batch[b, t+1, 4096 + q] · log ((1 - pred[j]) + ε)`: its first slice drops step 0
  of the masks, the next two take the two halves of the last axis, so the composed slices read `batch` at `(b, 1 + t, q)`
  and at `(b, 1 + t, 4096 + q)`; the constants are broadcast scalars; the host's logarithm is the extended reals' one. Its
  result is minus (zero plus the sum over every position), and zero plus a sum is the sum.
-/
import proofs.«124269_j89876485636307_1_alg».proof.Proof.Gen.ReferenceIdeal.Read
import proofs.«124269_j89876485636307_1_alg».proof.Proof.LossSpec

noncomputable section

open scoped BigOperators
open Idealize.ShloMosaic Idealize.ShloMosaic.ValueIdx

namespace Cert.ReferenceIdeal.RefLoss

open Cert.ReferenceIdeal Cert.ReferenceIdeal.Read Cert.LossSpec

/-- The two composed slices read the masks where the loss reads them. -/
theorem first_mask_idx (j : S64x199x4096.Idx) : idx_main_v0 (idx_main_v1 j) = hit (nb := 64) (j 0) (j 1) (j 2) :=
  funext fun a => Fin.ext (by match a with | ⟨0, _⟩ => rfl | ⟨1, _⟩ => rfl | ⟨2, _⟩ => rfl)
theorem second_mask_idx (j : S64x199x4096.Idx) : idx_main_v0 (idx_main_v2 j) = miss (nb := 64) (j 0) (j 1) (j 2) :=
  funext fun a => Fin.ext (by match a with | ⟨0, _⟩ => rfl | ⟨1, _⟩ => rfl | ⟨2, _⟩ => rfl)

/-- The reference's summand is the position's contribution. -/
theorem summand (x0 : S64x199x4096.Idx → EReal) (x1 : S64x200x8192.Idx → EReal) (j : S64x199x4096.Idx) :
    val_main_v13 (F := Ideal) x0 x1 j = elt x0 x1 j := by
  rw [val_main_v13_apply, val_main_v6_apply, val_main_v12_apply, val_main_v1_apply, val_main_v2_apply, val_main_v0_apply,
    val_main_v0_apply, val_main_v5_apply, val_main_v11_apply, val_main_v4_apply, val_main_v10_apply, val_main_v8_apply,
    val_main_v3_apply, val_main_v9_apply, val_main_v7_apply, val_main_cst_apply, val_main_cst_1_apply, val_main_cst_0_apply,
    first_mask_idx, second_mask_idx]
  rfl

/-- The reference's result: the loss, at its one index. -/
theorem result_eq (x0 : S64x199x4096.Idx → EReal) (x1 : S64x200x8192.Idx → EReal) :
    val_main_v15 (F := Ideal) x0 x1 = fun _ => loss x0 x1 := by
  funext i
  rw [val_main_v15_apply, val_main_v14_apply, val_main_cst_2_apply]
  show -(Ideal.ofBits .f32 0x00000000#32 + ∑ j, val_main_v13 (F := Ideal) x0 x1 j) = -(∑ j, elt x0 x1 j)
  rw [Ideal.ofBits_zero_f32, zero_add]
  exact congrArg Neg.neg (Finset.sum_congr rfl fun j _ => summand x0 x1 j)

end Cert.ReferenceIdeal.RefLoss

end
-- ==== Proof.lean ====
/-
  The kernel and its reference compute the same loss.

  Both programs take predictions `pred : [64, 199, 4096]` and masks `batch : [64, 200, 8192]` and return minus the sum,
  over every position `(b, t, q)`, of `batch[b, t+1, q] · log (pred[b, t, q] + ε) + batch[b, t+1, 4096 + q] · log ((1 -
  pred[b, t, q]) + ε)`. The reference takes that sum in one piece. The kernel walks 32 blocks of two batch rows on a
  2 × 16 grid, keeps a running total per grid row, writes each row's total out at the row's last point, and the program
  adds the two totals and negates. On the extended reals addition is commutative and associative, so the two groupings
  of the one sum agree, with no assumption on the inputs beyond what the frames need. The idealization changed no
  operation, so there is nothing to preserve.
-/
import proofs.«124269_j89876485636307_1_alg».proof.Defs
import proofs.«124269_j89876485636307_1_alg».proof.Proof.Gen.Kernel
import proofs.«124269_j89876485636307_1_alg».proof.Proof.Gen.Kernel.Skeleton
import proofs.«124269_j89876485636307_1_alg».proof.Proof.Gen.Kernel.Launch
import proofs.«124269_j89876485636307_1_alg».proof.Proof.Gen.Kernel.Points
import proofs.«124269_j89876485636307_1_alg».proof.Proof.Gen.Kernel.Frame
import proofs.«124269_j89876485636307_1_alg».proof.Proof.Gen.KernelIdeal
import proofs.«124269_j89876485636307_1_alg».proof.Proof.Gen.KernelIdeal.Skeleton
import proofs.«124269_j89876485636307_1_alg».proof.Proof.Gen.KernelIdeal.Launch
import proofs.«124269_j89876485636307_1_alg».proof.Proof.Gen.KernelIdeal.Points
import proofs.«124269_j89876485636307_1_alg».proof.Proof.Gen.KernelIdeal.Frame
import proofs.«124269_j89876485636307_1_alg».proof.Proof.Gen.ReferenceIdeal
import proofs.«124269_j89876485636307_1_alg».proof.Proof.Gen.ReferenceIdeal.Run
import proofs.«124269_j89876485636307_1_alg».proof.Proof.Gen.ReferenceIdeal.Read
import proofs.«124269_j89876485636307_1_alg».proof.Proof.Gen.Pre_finite_inputs
import Idealize.ShloMosaic.Adequacy
import Idealize.ShloMosaic.Init

import proofs.«124269_j89876485636307_1_alg».proof.Proof.LossRun
import proofs.«124269_j89876485636307_1_alg».proof.Proof.ReferenceLoss

noncomputable section

namespace Cert.Proof

open Idealize.ShloMosaic Idealize.SL.Sem Cert.Kernel

/-- The word-level kernel runs to the end and leaves its arguments alone. -/
theorem frame_kernel : Cert.frame_Kernel :=
  fun m ρ _ => Cert.Kernel.Gen.frame m ρ

/-- So does its idealization. -/
theorem frame_kernel_ideal : Cert.frame_KernelIdeal :=
  fun m ρ _ => Cert.KernelIdeal.Gen.frame m ρ

/-- So does the reference: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the loss of those arguments. -/
theorem algebraic : Cert.algebraic_KernelIdeal_ReferenceIdeal := by
  intro m ρ m' ρ' _ hagree
  refine ⟨fun c => fun _ => Cert.LossSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.LossRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefLoss.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
